-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S8x4096x512 : Shape := ⟨3, ![8, 4096, 512]⟩
abbrev S512x1024 : Shape := ⟨2, ![512, 1024]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x1024x512 .f32) (main_arg1 : FVec F S8x4096x512 .f32) (main_arg2 : FVec F S512x1024 .f32) (main_arg3 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x1024x512 : Shape := ⟨3, ![8, 1024, 512]⟩
abbrev S8x4096x512 : Shape := ⟨3, ![8, 4096, 512]⟩
abbrev S512x1024 : Shape := ⟨2, ![512, 1024]⟩
abbrev S512 : Shape := ⟨1, ![512]⟩
abbrev S512x512 : Shape := ⟨2, ![512, 512]⟩
abbrev S8x1024x4096 : Shape := ⟨3, ![8, 1024, 4096]⟩
abbrev S1x256x512 : Shape := ⟨3, ![1, 256, 512]⟩
abbrev S1x4096x512 : Shape := ⟨3, ![1, 4096, 512]⟩
abbrev S1x256x4096 : Shape := ⟨3, ![1, 256, 4096]⟩
abbrev S256x512 : Shape := ⟨2, ![256, 512]⟩
abbrev S4096x512 : Shape := ⟨2, ![4096, 512]⟩
abbrev S256x4096 : Shape := ⟨2, ![256, 4096]⟩
abbrev S256 : Shape := ⟨1, ![256]⟩
abbrev S256x1 : Shape := ⟨2, ![256, 1]⟩
abbrev S1x512 : Shape := ⟨2, ![1, 512]⟩

abbrev nBuf : Space → Nat
  | .hbm => 11
  | .vmem => 11
  | .smem => 0
  | _ => 0

abbrev bufTy : (tb : Table) → Fin (tcTables nBuf tb) → BufTy
  | .hbm, ⟨0, _⟩ => ⟨S8x1024x512, .f32⟩
  | .hbm, ⟨1, _⟩ => ⟨S8x4096x512, .f32⟩
  | .hbm, ⟨2, _⟩ => ⟨S512x1024, .f32⟩
  | .hbm, ⟨3, _⟩ => ⟨S512, .f32⟩
  | .hbm, ⟨4, _⟩ => ⟨S8x4096x512, .bf16⟩
  | .hbm, ⟨5, _⟩ => ⟨S512x512, .f32⟩
  | .hbm, ⟨6, _⟩ => ⟨S512x512, .bf16⟩
  | .hbm, ⟨7, _⟩ => ⟨S512x512, .f32⟩
  | .hbm, ⟨8, _⟩ => ⟨S512x512, .bf16⟩
  | .hbm, ⟨9, _⟩ => ⟨S8x1024x4096, .f32⟩
  | .hbm, ⟨10, _⟩ => ⟨S8x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x4096x512, .bf16⟩
  | .local _ .vmem, ⟨3, _⟩ => ⟨S1x4096x512, .bf16⟩
  | .local _ .vmem, ⟨4, _⟩ => ⟨S512x512, .bf16⟩
  | .local _ .vmem, ⟨5, _⟩ => ⟨S512x512, .bf16⟩
  | .local _ .vmem, ⟨6, _⟩ => ⟨S512, .f32⟩
  | .local _ .vmem, ⟨7, _⟩ => ⟨S1x256x4096, .f32⟩
  | .local _ .vmem, ⟨8, _⟩ => ⟨S1x256x4096, .f32⟩
  | .local _ .vmem, ⟨9, _⟩ => ⟨S1x256x512, .f32⟩
  | .local _ .vmem, ⟨10, _⟩ => ⟨S1x256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  slices_S512x1024_S512x512_0_0 : S512x1024.Slices ![0, 0] S512x512
  slices_S512x1024_S512x512_0_512 : S512x1024.Slices ![0, 512] S512x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  shapeCasts_S256x512_S1x256x512 : S256x512.ShapeCasts S1x256x512
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x1024x512.size a
  hwx0_0 : ∀ i : grid0.Coords, EltTy.bits .f32 = 32 ∨ (Rect.block (s := S8x1024x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S8x4096x512.size a
  hwx0_1 : ∀ i : grid0.Coords, EltTy.bits .bf16 = 32 ∨ (Rect.block (s := S8x4096x512) S1x4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S8x1024x4096.size a
  hwx0_5 : ∀ i : grid0.Coords, EltTy.bits .f32 = 32 ∨ (Rect.block (s := S8x1024x4096) S1x256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x512.size a ≤ S8x1024x512.size a
  hwx0_6 : ∀ i : grid0.Coords, EltTy.bits .f32 = 32 ∨ (Rect.block (s := S8x1024x512) S1x256x512.size (cc0_transform_6 i) (hinb0_6 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x256x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S8x4096x512 : Shape := ⟨3, ![8, 4096, 512]⟩
abbrev S512x1024 : Shape := ⟨2, ![512, 1024]⟩
abbrev S512 : Shape := ⟨1, ![512]⟩
abbrev S8x1024x4096 : Shape := ⟨3, ![8, 1024, 4096]⟩
abbrev S_ : Shape := ⟨0, ![]⟩
abbrev S8x1024 : Shape := ⟨2, ![8, 1024]⟩
abbrev S8x1024x1 : Shape := ⟨3, ![8, 1024, 1]⟩
abbrev S8x1024x1024 : Shape := ⟨3, ![8, 1024, 1024]⟩
abbrev S1x1x512 : Shape := ⟨3, ![1, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x4096x512, .f32⟩
  | .hbm, ⟨2, _⟩ => ⟨S512x1024, .f32⟩
  | .hbm, ⟨3, _⟩ => ⟨S512, .f32⟩
  | .hbm, ⟨4, _⟩ => ⟨S8x1024x4096, .f32⟩
  | .hbm, ⟨5, _⟩ => ⟨S_, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024x1, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S_, .f32⟩
  | .hbm, ⟨15, _⟩ => ⟨S8x1024, .f32⟩
  | .hbm, ⟨16, _⟩ => ⟨S8x1024x1, .f32⟩
  | .hbm, ⟨17, _⟩ => ⟨S8x1024x4096, .f32⟩
  | .hbm, ⟨18, _⟩ => ⟨S8x1024x4096, .f32⟩
  | .hbm, ⟨19, _⟩ => ⟨S8x1024x512, .f32⟩
  | .hbm, ⟨20, _⟩ => ⟨S8x1024x1024, .f32⟩
  | .hbm, ⟨21, _⟩ => ⟨S8x1024x512, .f32⟩
  | .hbm, ⟨22, _⟩ => ⟨S1x1x512, .f32⟩
  | .hbm, ⟨23, _⟩ => ⟨S8x1024x512, .f32⟩
  | .hbm, ⟨24, _⟩ => ⟨S8x1024x512, .f32⟩
  | .hbm, ⟨25, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8x1024x4096_S8x1024_d2 : S8x1024x4096.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x4096_0_1_2 : S8x1024x1.BroadcastsInDim S8x1024x4096 (![0, 1, 2] : Fin 3 → Fin S8x1024x4096.rank)
  concatenates_S8x1024x512_S8x1024x512_S8x1024x1024_d2 : Shape.Concatenates [S8x1024x512, S8x1024x512] S8x1024x1024 2
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  dot_S8x1024x512_S8x4096x512_S8x1024x4096_2_2_1_1_0_0_wf : DotDims.WF S8x1024x512 S8x4096x512 S8x1024x4096 [2] [2] [1] [1] [0] [0]
  dot_S8x1024x4096_S8x4096x512_S8x1024x512_2_1_1_2_0_0_wf : DotDims.WF S8x1024x4096 S8x4096x512 S8x1024x512 [2] [1] [1] [2] [0] [0]
  dot_S8x1024x1024_S512x1024_S8x1024x512_2_1_01_0_n_n_wf : DotDims.WF S8x1024x1024 S512x1024 S8x1024x512 [2] [1] [0, 1] [0] [] []

variable [Facts₀]

def dot_S8x1024x512_S8x4096x512_S8x1024x4096_2_2_1_1_0_0 : DotDims S8x1024x512 S8x4096x512 S8x1024x4096 where
  lhsContracting := [2]
  rhsContracting := [2]
  lhsNonContracting := [1]
  rhsNonContracting := [1]
  lhsBatch := [0]
  rhsBatch := [0]
  wf := dot_S8x1024x512_S8x4096x512_S8x1024x4096_2_2_1_1_0_0_wf
def dot_S8x1024x4096_S8x4096x512_S8x1024x512_2_1_1_2_0_0 : DotDims S8x1024x4096 S8x4096x512 S8x1024x512 where
  lhsContracting := [2]
  rhsContracting := [1]
  lhsNonContracting := [1]
  rhsNonContracting := [2]
  lhsBatch := [0]
  rhsBatch := [0]
  wf := dot_S8x1024x4096_S8x4096x512_S8x1024x512_2_1_1_2_0_0_wf
def dot_S8x1024x1024_S512x1024_S8x1024x512_2_1_01_0_n_n : DotDims S8x1024x1024 S512x1024 S8x1024x512 where
  lhsContracting := [2]
  rhsContracting := [1]
  lhsNonContracting := [0, 1]
  rhsNonContracting := [0]
  lhsBatch := []
  rhsBatch := []
  wf := dot_S8x1024x1024_S512x1024_S8x1024x512_2_1_01_0_n_n_wf

class Facts : Prop extends Facts₀ where

variable [Facts]
-- ==== Proof.Spec.lean ====
/-
  Attention over one batch followed by an output projection, written for ONE query row over the extended reals.

  For a query row q (512 entries) and the batch's context rows c_k (4096 rows of 512 entries):
    score k  = sum over d of q d * c_k d
    attn k   = exp (score k - M) / (sum over k' of exp (score k' - M)),  M the maximum of the scores taken from -infinity
               (the softmax of the row of scores, `softmaxRow`)
    mix d    = sum over k of attn k * c_k d
    out d    = tanh ((sum over e of mix e * w1 d e + sum over e of q e * w2 d e) + bias d)
  where w1 and w2 are the left and the right half of the columns of a [512, 1024] weight matrix: the row [mix, q] of
  1024 entries times the weight's row d, the sum over the 1024 columns split at column 512 (`sum_halves`).
  `attnArr` and `outArr` are these read over whole arrays [8, 1024, 512], [8, 4096, 512], [512, 1024], [512].
  Nothing here needs an entry to be finite: the only law used is that a sum over 1024 indices is the sum over the first
  512 plus the sum over the last 512, which holds in any commutative monoid.
-/
import Idealize.ShloMosaic.PureOps.Ideal
import Idealize.ShloMosaic.Lib.ValueIdx

noncomputable section

open scoped BigOperators

namespace Cert.AttnSpec

open Idealize.ShloMosaic Idealize.ShloMosaic.ValueIdx

/-- The value both row maxima start from: the f32 word of -infinity. -/
abbrev negInf : EReal := Ideal.ofBits .f32 0xFF800000#32

/-- A maximum with -infinity is the other operand. -/
theorem max_negInf (y : EReal) : max negInf y = y := by
  show max (Ideal.ofBits .f32 0xFF800000#32) y = y
  simp [Ideal.ofBits, Ideal.ieee]

section Softmax

variable (s : Fin 4096 → EReal)

/-- The largest entry of a row, the maximum taken from -infinity. -/
def rowMax : EReal := (Finset.univ : Finset (Fin 4096)).fold max negInf s

/-- The softmax of a row at `k`: the exponential of the entry less the row's maximum, over the sum of those exponentials. -/
def softmaxRow (k : Fin 4096) : EReal :=
  Ideal.div (Ideal.exp (s k - rowMax s)) (∑ k' : Fin 4096, Ideal.exp (s k' - rowMax s))

end Softmax

section Row

variable (qrow : Fin 512 → EReal) (ctx : Fin 4096 → Fin 512 → EReal)

/-- The query row against context row `k`. -/
def score (k : Fin 4096) : EReal := ∑ d : Fin 512, qrow d * ctx k d

/-- The attention weights of the row: the softmax of its scores. -/
def attnRow (k : Fin 4096) : EReal := softmaxRow (score qrow ctx) k

/-- The attention-weighted sum of the context rows, at feature `d`. -/
def mixRow (d : Fin 512) : EReal := ∑ k : Fin 4096, attnRow qrow ctx k * ctx k d

/-- The projected row: `[mix, q]` against row `d` of the weights (its two halves `w1`, `w2`), plus the bias, through tanh. -/
def outRow (w1 w2 : Fin 512 → Fin 512 → EReal) (bias : Fin 512 → EReal) (d : Fin 512) : EReal :=
  Ideal.tanh ((∑ e : Fin 512, mixRow qrow ctx e * w1 d e + ∑ e : Fin 512, qrow e * w2 d e) + bias d)

end Row

/-- A sum over 1024 indices is the sum over the first 512 plus the sum over the last 512. -/
theorem sum_halves (f : Fin 1024 → EReal) :
    ∑ k : Fin 1024, f k = ∑ e : Fin 512, f ⟨e.val, by omega⟩ + ∑ e : Fin 512, f ⟨512 + e.val, by omega⟩ :=
  Fin.sum_univ_add (a := 512) (b := 512) f

section Arrays

variable (Q : (⟨3, ![8, 1024, 512]⟩ : Shape).Idx → EReal) (C : (⟨3, ![8, 4096, 512]⟩ : Shape).Idx → EReal)
  (W : (⟨2, ![512, 1024]⟩ : Shape).Idx → EReal) (B : (⟨1, ![512]⟩ : Shape).Idx → EReal)

/-- The attention weight of batch `b`, query `q`, key `k`. -/
def attnAt (b : Fin 8) (q : Fin 1024) (k : Fin 4096) : EReal :=
  attnRow (fun d => Q (ix3 b q d)) (fun k' d => C (ix3 b k' d)) k

/-- The projected output of batch `b`, query `q`, feature `d`. -/
def outAt (b : Fin 8) (q : Fin 1024) (d : Fin 512) : EReal :=
  outRow (fun e => Q (ix3 b q e)) (fun k e => C (ix3 b k e))
    (fun d' e => W (ix2 d' (⟨e.val, by omega⟩ : Fin 1024))) (fun d' e => W (ix2 d' (⟨512 + e.val, by omega⟩ : Fin 1024)))
    (fun d' => B (ix1 d')) d

/-- The attention weights as one array. -/
def attnArr : (⟨3, ![8, 1024, 4096]⟩ : Shape).Idx → EReal := fun i => attnAt Q C (i 0) (i 1) (i 2)

/-- The projected outputs as one array. -/
def outArr : (⟨3, ![8, 1024, 512]⟩ : Shape).Idx → EReal := fun i => outAt Q C W B (i 0) (i 1) (i 2)

end Arrays

end Cert.AttnSpec

end
-- ==== Proof.MatmulRead.lean ====
/-
  The kernel's three matrix products into a zero accumulator, read at an index over the extended reals: each entry is
  the plain sum, over the one contracted axis, of the products of the operands' entries.
    scores : [256, 512] against [4096, 512], both contracted on their second axis: entry (p, k) = sum over d of l (p, d) * r (k, d)
    mix    : [256, 4096] against [4096, 512], the left contracted on its second axis and the right on its first:
             entry (p, e) = sum over k of l (p, k) * r (k, e)
    proj   : [256, 512] against [512, 512], both contracted on their second axis: entry (p, d) = sum over e of l (p, e) * r (d, e)
  In each the contraction index set has one axis and is identified with its one coordinate.
-/
import proofs.«120601_j1580547974427_2_alg».proof.Proof.Gen.KernelIdeal
import Idealize.ShloMosaic.Lib.ValueIdx
import Idealize.ShloMosaic.PureOps.Ideal.Laws

noncomputable section

open scoped BigOperators

namespace Cert.KernelIdeal.MatmulRead

open Cert.KernelIdeal Cert.KernelIdeal.Gen Idealize.ShloMosaic Idealize.ShloMosaic.ValueIdx

/-! ## scores -/

abbrev DS := dot_S256x512_S4096x512_S256x4096_1_1_0_0_n_n

theorem scores_lhs0 (j : S256x4096.Idx) (q : DS.contr.Idx) : (DS.lhsIdx j q 0).val = (j 0).val := by
  unfold DotDims.lhsIdx
  rw [dif_neg (show ¬(0 : Fin S256x512.rank) ∈ DS.lhsBatch by decide), dif_pos (show (0 : Fin S256x512.rank) ∈ DS.lhsNonContracting by decide)]
  rfl
theorem scores_lhs1 (j : S256x4096.Idx) (q : DS.contr.Idx) : (DS.lhsIdx j q 1).val = (q ⟨0, by decide⟩).val :=
  DS.lhsIdx_val_of_single rfl j q
theorem scores_rhs0 (j : S256x4096.Idx) (q : DS.contr.Idx) : (DS.rhsIdx j q 0).val = (j 1).val := by
  unfold DotDims.rhsIdx
  rw [dif_neg (show ¬(0 : Fin S4096x512.rank) ∈ DS.rhsBatch by decide), dif_pos (show (0 : Fin S4096x512.rank) ∈ DS.rhsNonContracting by decide)]
  rfl
theorem scores_rhs1 (j : S256x4096.Idx) (q : DS.contr.Idx) : (DS.rhsIdx j q 1).val = (q ⟨0, by decide⟩).val :=
  DS.rhsIdx_val_of_single rfl j q

/-- Entry (p, k) of the scores: the sum over the 512 features of the left row p times the right row k. -/
theorem scores_apply {φ₁ φ₂ : FTy} (l : FVec Ideal S256x512 φ₁) (r : FVec Ideal S4096x512 φ₂) (p : Fin 256) (k : Fin 4096) :
    matmul DS none l r (constant (F := Ideal) S256x4096 .f32 0x00000000#32) (ix2 p k) = ∑ d : Fin 512, l (ix2 p d) * r (ix2 k d) := by
  simp only [matmul]
  rw [Ideal.matmul_constant_zero_apply, ← Equiv.sum_comp (contrEquiv1 DS 512 rfl rfl).symm]
  refine Finset.sum_congr rfl fun d _ => ?_
  have hd := contrEquiv1_symm_val DS 512 rfl rfl d
  have el : DS.lhsIdx (ix2 p k) ((contrEquiv1 DS 512 rfl rfl).symm d) = ix2 p d := funext fun a => Fin.ext (by
    match a with
    | ⟨0, _⟩ => exact scores_lhs0 _ _
    | ⟨1, _⟩ => exact (scores_lhs1 _ _).trans hd)
  have er : DS.rhsIdx (ix2 p k) ((contrEquiv1 DS 512 rfl rfl).symm d) = ix2 k d := funext fun a => Fin.ext (by
    match a with
    | ⟨0, _⟩ => exact scores_rhs0 _ _
    | ⟨1, _⟩ => exact (scores_rhs1 _ _).trans hd)
  rw [el, er]

/-! ## mix -/

abbrev DM := dot_S256x4096_S4096x512_S256x512_1_0_0_1_n_n

theorem mix_lhs0 (j : S256x512.Idx) (q : DM.contr.Idx) : (DM.lhsIdx j q 0).val = (j 0).val := by
  unfold DotDims.lhsIdx
  rw [dif_neg (show ¬(0 : Fin S256x4096.rank) ∈ DM.lhsBatch by decide), dif_pos (show (0 : Fin S256x4096.rank) ∈ DM.lhsNonContracting by decide)]
  rfl
theorem mix_lhs1 (j : S256x512.Idx) (q : DM.contr.Idx) : (DM.lhsIdx j q 1).val = (q ⟨0, by decide⟩).val :=
  DM.lhsIdx_val_of_single rfl j q
theorem mix_rhs0 (j : S256x512.Idx) (q : DM.contr.Idx) : (DM.rhsIdx j q 0).val = (q ⟨0, by decide⟩).val :=
  DM.rhsIdx_val_of_single rfl j q
theorem mix_rhs1 (j : S256x512.Idx) (q : DM.contr.Idx) : (DM.rhsIdx j q 1).val = (j 1).val := by
  unfold DotDims.rhsIdx
  rw [dif_neg (show ¬(1 : Fin S4096x512.rank) ∈ DM.rhsBatch by decide), dif_pos (show (1 : Fin S4096x512.rank) ∈ DM.rhsNonContracting by decide)]
  rfl

/-- Entry (p, e) of the mix: the sum over the 4096 keys of the left row p times the right column e. -/
theorem mix_apply {φ₁ φ₂ : FTy} (l : FVec Ideal S256x4096 φ₁) (r : FVec Ideal S4096x512 φ₂) (p : Fin 256) (e : Fin 512) :
    matmul DM none l r (constant (F := Ideal) S256x512 .f32 0x00000000#32) (ix2 p e) = ∑ k : Fin 4096, l (ix2 p k) * r (ix2 k e) := by
  simp only [matmul]
  rw [Ideal.matmul_constant_zero_apply, ← Equiv.sum_comp (contrEquiv1 DM 4096 rfl rfl).symm]
  refine Finset.sum_congr rfl fun k _ => ?_
  have hk := contrEquiv1_symm_val DM 4096 rfl rfl k
  have el : DM.lhsIdx (ix2 p e) ((contrEquiv1 DM 4096 rfl rfl).symm k) = ix2 p k := funext fun a => Fin.ext (by
    match a with
    | ⟨0, _⟩ => exact mix_lhs0 _ _
    | ⟨1, _⟩ => exact (mix_lhs1 _ _).trans hk)
  have er : DM.rhsIdx (ix2 p e) ((contrEquiv1 DM 4096 rfl rfl).symm k) = ix2 k e := funext fun a => Fin.ext (by
    match a with
    | ⟨0, _⟩ => exact (mix_rhs0 _ _).trans hk
    | ⟨1, _⟩ => exact mix_rhs1 _ _)
  rw [el, er]

/-! ## proj -/

abbrev DP := dot_S256x512_S512x512_S256x512_1_1_0_0_n_n

theorem proj_lhs0 (j : S256x512.Idx) (q : DP.contr.Idx) : (DP.lhsIdx j q 0).val = (j 0).val := by
  unfold DotDims.lhsIdx
  rw [dif_neg (show ¬(0 : Fin S256x512.rank) ∈ DP.lhsBatch by decide), dif_pos (show (0 : Fin S256x512.rank) ∈ DP.lhsNonContracting by decide)]
  rfl
theorem proj_lhs1 (j : S256x512.Idx) (q : DP.contr.Idx) : (DP.lhsIdx j q 1).val = (q ⟨0, by decide⟩).val :=
  DP.lhsIdx_val_of_single rfl j q
theorem proj_rhs0 (j : S256x512.Idx) (q : DP.contr.Idx) : (DP.rhsIdx j q 0).val = (j 1).val := by
  unfold DotDims.rhsIdx
  rw [dif_neg (show ¬(0 : Fin S512x512.rank) ∈ DP.rhsBatch by decide), dif_pos (show (0 : Fin S512x512.rank) ∈ DP.rhsNonContracting by decide)]
  rfl
theorem proj_rhs1 (j : S256x512.Idx) (q : DP.contr.Idx) : (DP.rhsIdx j q 1).val = (q ⟨0, by decide⟩).val :=
  DP.rhsIdx_val_of_single rfl j q

/-- Entry (p, d) of a projection: the sum over the 512 input features of the left row p times the weights' row d. -/
theorem proj_apply {φ₁ φ₂ : FTy} (l : FVec Ideal S256x512 φ₁) (r : FVec Ideal S512x512 φ₂) (p : Fin 256) (d : Fin 512) :
    matmul DP none l r (constant (F := Ideal) S256x512 .f32 0x00000000#32) (ix2 p d) = ∑ e : Fin 512, l (ix2 p e) * r (ix2 d e) := by
  simp only [matmul]
  rw [Ideal.matmul_constant_zero_apply, ← Equiv.sum_comp (contrEquiv1 DP 512 rfl rfl).symm]
  refine Finset.sum_congr rfl fun e _ => ?_
  have he := contrEquiv1_symm_val DP 512 rfl rfl e
  have el : DP.lhsIdx (ix2 p d) ((contrEquiv1 DP 512 rfl rfl).symm e) = ix2 p e := funext fun a => Fin.ext (by
    match a with
    | ⟨0, _⟩ => exact proj_lhs0 _ _
    | ⟨1, _⟩ => exact (proj_lhs1 _ _).trans he)
  have er : DP.rhsIdx (ix2 p d) ((contrEquiv1 DP 512 rfl rfl).symm e) = ix2 d e := funext fun a => Fin.ext (by
    match a with
    | ⟨0, _⟩ => exact proj_rhs0 _ _
    | ⟨1, _⟩ => exact (proj_rhs1 _ _).trans he)
  rw [el, er]

end Cert.KernelIdeal.MatmulRead

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.Payload.lean ====
/-
  What the kernel's body computes from its loaded blocks, read at an index, is the specification of one query row.
  The body loads a [1, 256, 512] block of queries, a [1, 4096, 512] block of context (one batch), two [512, 512] weight
  blocks and the [512] bias. Dropping the leading unit axis, row p of the query block and the context block give the
  scores of row p (a matrix product contracted over the 512 features); the row maximum (a lane reduction from -infinity,
  kept as a column and spread back along the row), the exponentials, their row sums (a lane reduction from 0, kept and
  spread the same way) and the quotient are the softmax of that row; a second matrix product against the same context
  block is the mix; two more against the weight blocks, added, plus the bias spread along the rows, through tanh, are the
  projected row. A change of float format is the identity on the extended reals.
-/
import proofs.«120601_j1580547974427_2_alg».proof.Proof.Gen.KernelIdeal.Skeleton
import proofs.«120601_j1580547974427_2_alg».proof.Proof.Spec
import proofs.«120601_j1580547974427_2_alg».proof.Proof.MatmulRead
import proofs.«120601_j1580547974427_2_alg».proof.Proof.LibKeptColumn
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.AttnSpec

variable (x0 : Vec Ideal S1x256x512 .f32) (x1 : Vec Ideal S1x4096x512 .bf16) (x2 x3 : Vec Ideal S512x512 .bf16)
  (x4 : Vec Ideal S512 .f32)

/-- Row p of the query block. -/
abbrev qrowOf (p : Fin 256) : Fin 512 → EReal := fun d => x0 (ix3 (0 : Fin 1) p d)
/-- The context block as rows. -/
abbrev ctxOf : Fin 4096 → Fin 512 → EReal := fun k d => x1 (ix3 (0 : Fin 1) k d)

/-! ## The loaded blocks without their unit axis -/

theorem qblk_apply (p : Fin 256) (d : Fin 512) : k0_pay3 x0 (ix2 p d) = x0 (ix3 (0 : Fin 1) p d) :=
  shapeCast_1ab_ab_apply x0 shapeCasts_S1x256x512_S256x512 p d

theorem cblk_apply (k : Fin 4096) (d : Fin 512) : k0_pay2 x1 (ix2 k d) = x1 (ix3 (0 : Fin 1) k d) :=
  shapeCast_1ab_ab_apply x1 shapeCasts_S1x4096x512_S4096x512 k d

/-! ## The scores -/

/-- The block's scores. -/
def scoresBlk : FVec Ideal S256x4096 .f32 :=
  matmul dot_S256x512_S4096x512_S256x4096_1_1_0_0_n_n none (k0_pay3 x0) (k0_pay2 x1) (constant S256x4096 .f32 0x00000000#32)

theorem scoresBlk_apply (p : Fin 256) (k : Fin 4096) : scoresBlk x0 x1 (ix2 p k) = score (qrowOf x0 p) (ctxOf x1) k := by
  unfold scoresBlk score
  refine (MatmulRead.scores_apply _ _ p k).trans ?_
  exact Finset.sum_congr rfl fun d _ => congrArg₂ (· * ·) (qblk_apply x0 p d) (cblk_apply x1 k d)

/-! ## The softmax of a block of scores, row by row -/

/-- The reduced index p with key k put back on the second axis is (p, k). -/
theorem lift_key (h : S256x4096.Reduces [1] S256) (p : Fin 256) (k : Fin 4096) : h.lift (ix1 p) k = ix2 p k := by
  funext c; apply Fin.ext
  match c with | ⟨0, _⟩ => rfl | ⟨1, _⟩ => rfl

/-- Each row's maximum, spread back along the row. -/
def rowMaxBlk (sc : FVec Ideal S256x4096 .f32) : FVec Ideal S256x4096 .f32 :=
  broadcastTo S256x4096 (shapeCast S256x1 (multiReduction .maximumf [1] S256 sc 0xFF800000#32 reduces_S256x4096_S256 (.inl rfl) rfl) shapeCasts_S256_S256x1) broadcasts_S256x1_S256x4096

/-- The exponentials of the scores less their row's maximum. -/
def expBlk (sc : FVec Ideal S256x4096 .f32) : FVec Ideal S256x4096 .f32 := exp (subf sc (rowMaxBlk sc))

/-- Each row's sum of exponentials, spread back along the row. -/
def denomBlk (sc : FVec Ideal S256x4096 .f32) : FVec Ideal S256x4096 .f32 :=
  broadcastTo S256x4096 (shapeCast S256x1 (multiReduction .add [1] S256 (expBlk sc) 0x00000000#32 reduces_S256x4096_S256 (.inl rfl) rfl) shapeCasts_S256_S256x1) broadcasts_S256x1_S256x4096

theorem rowMaxBlk_apply (sc : FVec Ideal S256x4096 .f32) (p : Fin 256) (k : Fin 4096) :
    rowMaxBlk sc (ix2 p k) = rowMax (fun k' => sc (ix2 p k')) := by
  unfold rowMaxBlk
  refine (KeptColumn.broadcastTo_a1_ab_apply _ _ p k).trans ?_
  refine (KeptColumn.shapeCast_a_a1_apply _ _ p (0 : Fin 1)).trans ?_
  refine (Ideal.multiReduction_maximumf_single sc 0xFF800000#32 reduces_S256x4096_S256 (.inl rfl) rfl (ix1 p)).trans ?_
  exact congrArg (fun f => Finset.fold max negInf f (Finset.univ : Finset (Fin 4096)))
    (funext fun k' => congrArg sc (lift_key _ p k'))

theorem expBlk_apply (sc : FVec Ideal S256x4096 .f32) (p : Fin 256) (k : Fin 4096) :
    expBlk sc (ix2 p k) = Ideal.exp (sc (ix2 p k) - rowMax (fun k' => sc (ix2 p k'))) := by
  show Ideal.exp (sc (ix2 p k) - rowMaxBlk sc (ix2 p k)) = _
  rw [rowMaxBlk_apply]

theorem denomBlk_apply (sc : FVec Ideal S256x4096 .f32) (p : Fin 256) (k : Fin 4096) :
    denomBlk sc (ix2 p k) = ∑ k' : Fin 4096, Ideal.exp (sc (ix2 p k') - rowMax (fun k'' => sc (ix2 p k''))) := by
  unfold denomBlk
  refine (KeptColumn.broadcastTo_a1_ab_apply _ _ p k).trans ?_
  refine (KeptColumn.shapeCast_a_a1_apply _ _ p (0 : Fin 1)).trans ?_
  refine (Ideal.multiReduction_add_single (expBlk sc) 0x00000000#32 reduces_S256x4096_S256 (.inl rfl) rfl (ix1 p)).trans ?_
  exact Finset.sum_congr rfl fun k' _ => (congrArg (expBlk sc) (lift_key _ p k')).trans (expBlk_apply sc p k')

/-- The quotient is the softmax of the row. -/
theorem softmaxBlk_apply (sc : FVec Ideal S256x4096 .f32) (p : Fin 256) (k : Fin 4096) :
    divf (expBlk sc) (denomBlk sc) (ix2 p k) = softmaxRow (fun k' => sc (ix2 p k')) k := by
  show Ideal.div (expBlk sc (ix2 p k)) (denomBlk sc (ix2 p k)) = _
  rw [expBlk_apply, denomBlk_apply]
  rfl

/-- The body's attention payload is the softmax of the block's scores. -/
theorem pay4_eq : k0_pay4 x0 x1 = divf (expBlk (scoresBlk x0 x1)) (denomBlk (scoresBlk x0 x1)) := rfl

/-- The attention block at (p, k) is the attention of query row p at key k. -/
theorem attn_block (p : Fin 256) (k : Fin 4096) : k0_pay4 x0 x1 (ix2 p k) = attnRow (qrowOf x0 p) (ctxOf x1) k := by
  rw [pay4_eq]
  refine (softmaxBlk_apply (scoresBlk x0 x1) p k).trans ?_
  unfold attnRow
  exact congrArg (fun s => softmaxRow s k) (funext fun k' => scoresBlk_apply x0 x1 p k')

/-! ## The mix and the projection -/

/-- The block's mix. -/
def mixBlk : FVec Ideal S256x512 .f32 :=
  matmul dot_S256x4096_S4096x512_S256x512_1_0_0_1_n_n none (truncf .bf16 (k0_pay4 x0 x1) bitsLt_bf16_f32) (k0_pay2 x1) (constant S256x512 .f32 0x00000000#32)

theorem mixBlk_apply (p : Fin 256) (e : Fin 512) : mixBlk x0 x1 (ix2 p e) = mixRow (qrowOf x0 p) (ctxOf x1) e := by
  unfold mixBlk mixRow
  refine (MatmulRead.mix_apply _ _ p e).trans ?_
  refine Finset.sum_congr rfl fun k _ => ?_
  rw [truncf_apply, attn_block, cblk_apply]

/-- The mix against the first weight block. -/
def projMixBlk : FVec Ideal S256x512 .f32 :=
  matmul dot_S256x512_S512x512_S256x512_1_1_0_0_n_n none (truncf .bf16 (mixBlk x0 x1) bitsLt_bf16_f32) (shapeCast S512x512 x2 shapeCasts_S512x512_S512x512 : FVec Ideal S512x512 .bf16) (constant S256x512 .f32 0x00000000#32)

/-- The queries against the second weight block. -/
def projQBlk : FVec Ideal S256x512 .f32 :=
  matmul dot_S256x512_S512x512_S256x512_1_1_0_0_n_n none (k0_pay3 x0) (shapeCast S512x512 x3 shapeCasts_S512x512_S512x512 : FVec Ideal S512x512 .bf16) (constant S256x512 .f32 0x00000000#32)

/-- The bias spread along the rows. -/
def biasBlk : FVec Ideal S256x512 .f32 := broadcastTo S256x512 (shapeCast S1x512 x4 shapeCasts_S512_S1x512) broadcasts_S1x512_S256x512

theorem projMixBlk_apply (p : Fin 256) (d : Fin 512) :
    projMixBlk x0 x1 x2 (ix2 p d) = ∑ e : Fin 512, mixRow (qrowOf x0 p) (ctxOf x1) e * x2 (ix2 d e) := by
  unfold projMixBlk
  refine (MatmulRead.proj_apply _ _ p d).trans ?_
  refine Finset.sum_congr rfl fun e _ => ?_
  rw [truncf_apply, mixBlk_apply, shapeCast_self]

theorem projQBlk_apply (p : Fin 256) (d : Fin 512) :
    projQBlk x0 x3 (ix2 p d) = ∑ e : Fin 512, x0 (ix3 (0 : Fin 1) p e) * x3 (ix2 d e) := by
  unfold projQBlk
  refine (MatmulRead.proj_apply _ _ p d).trans ?_
  refine Finset.sum_congr rfl fun e _ => ?_
  rw [qblk_apply, shapeCast_self]

theorem biasBlk_apply (p : Fin 256) (d : Fin 512) : biasBlk x4 (ix2 p d) = x4 (ix1 d) :=
  (broadcastTo_1b_ab_apply _ _ p d).trans (shapeCast_a_1a_apply x4 shapeCasts_S512_S1x512 (0 : Fin 1) d)

/-- The body's output payload is tanh of the two projections plus the bias. -/
theorem pay6_eq : k0_pay6 x0 x1 x2 x3 x4 = tanh (addf (addf (projMixBlk x0 x1 x2) (projQBlk x0 x3)) (biasBlk x4)) := rfl

/-- The output block at (p, d) is the projected output of query row p at feature d. -/
theorem out_block (p : Fin 256) (d : Fin 512) :
    k0_pay6 x0 x1 x2 x3 x4 (ix2 p d)
      = outRow (qrowOf x0 p) (ctxOf x1) (fun d' e => x2 (ix2 d' e)) (fun d' e => x3 (ix2 d' e)) (fun d' => x4 (ix1 d')) d := by
  rw [pay6_eq]
  show Ideal.tanh ((projMixBlk x0 x1 x2 (ix2 p d) + projQBlk x0 x3 (ix2 p d)) + biasBlk x4 (ix2 p d)) = _
  rw [projMixBlk_apply, projQBlk_apply, biasBlk_apply]
  rfl

end Cert.KernelIdeal.Payload

end
-- ==== Proof.Blocks.lean ====
/-
  From blocks to arrays. The grid is 8 batches by 4 query blocks. At point (bi, qi) the query window's block is rows
  256 qi .. 256 qi + 255 of batch bi, the context window's block is the whole of batch bi, the two weight windows and the
  bias window are their whole arrays, and the two output windows write rows 256 qi .. 256 qi + 255 of batch bi of the
  attention array and of the output array. The arrays the windows stage are the arguments themselves, or, for the
  context and the two weight halves, what the host operations before the launch made of them: a change of format (the
  identity on the extended reals) of the context, and of columns 0..511 and of columns 512..1023 of the weight matrix.
  So what a point writes back is the specification's array read through the point's block, the blocks cover both output
  arrays, and the run ends with the two arrays equal to the specification's.
-/
import proofs.«120601_j1580547974427_2_alg».proof.Proof.Gen.KernelIdeal.Value
import proofs.«120601_j1580547974427_2_alg».proof.Proof.Payload
import Idealize.ShloMosaic.Lib.Pipeline.Value
import Idealize.ShloMosaic.Lib.ValueLayout
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.AttnSpec

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The index maps over the grid -/

/-- The printed index maps, decided over the 32 points: the query window and the two output windows move together
    (batch, query block, 0); the context window follows the batch only; the weights and the bias stay at block 0. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_6.index t (0 : Fin 3) = win0_5.index t (0 : Fin 3) ∧ win0_6.index t (1 : Fin 3) = win0_5.index t (1 : Fin 3)
    ∧ win0_6.index t (2 : Fin 3) = 0
    ∧ win0_5.index t (2 : Fin 3) = 0 ∧ win0_5.index t (0 : Fin 3) < 8 ∧ win0_5.index t (1 : Fin 3) < 4 :=
  (by decide +kernel : ∀ t : Fin grid0.N, _)

/-- Every (batch, query block) is some point's. -/
theorem idx_onto : ∀ (q0 : Fin 8) (q1 : Fin 4), ∃ t : Fin cfg0.N, win0_5.index t (0 : Fin 3) = q0.val ∧ win0_5.index t (1 : Fin 3) = q1.val :=
  (by decide +kernel : ∀ (q0 : Fin 8) (q1 : Fin 4), ∃ t : Fin grid0.N, win0_5.index t (0 : Fin 3) = q0.val ∧ win0_5.index t (1 : Fin 3) = q1.val)

/-! ## The arrays the windows stage -/

/-- The context window's array is the context argument: the host's change of format is the identity. -/
theorem V_ctx (c : Dev nD) : (V m c main_v0 : S8x4096x512.Idx → EReal) = (m ((c : Thread nD τ).loc main_arg1) : S8x4096x512.Idx → EReal) := by
  dsimp only [Gen.V, Gen.hostOps0]; after_results; rfl

/-- The first weight window's array is columns 0..511 of the weight argument. -/
theorem V_w1 (c : Dev nD) (d e : Fin 512) :
    (V m c main_v2 : S512x512.Idx → EReal) (ix2 d e)
      = (m ((c : Thread nD τ).loc main_arg2) : S512x1024.Idx → EReal) (ix2 d (⟨e.val, by omega⟩ : Fin 1024)) := by
  have e0 : (V m c main_v2 : S512x512.Idx → EReal)
      = extractStridedSlice S512x512 ![0, 0] (m ((c : Thread nD τ).loc main_arg2) : S512x1024.Idx → EReal) slices_S512x1024_S512x512_0_0 := by
    dsimp only [Gen.V, Gen.hostOps0]; after_results; rfl
  rw [e0]
  exact slice2_axis1_apply 0 _ slices_S512x1024_S512x512_0_0 d e _ (by show e.val = 0 + e.val; omega)

/-- The second weight window's array is columns 512..1023 of the weight argument. -/
theorem V_w2 (c : Dev nD) (d e : Fin 512) :
    (V m c main_v4 : S512x512.Idx → EReal) (ix2 d e)
      = (m ((c : Thread nD τ).loc main_arg2) : S512x1024.Idx → EReal) (ix2 d (⟨512 + e.val, by omega⟩ : Fin 1024)) := by
  have e0 : (V m c main_v4 : S512x512.Idx → EReal)
      = extractStridedSlice S512x512 ![0, 512] (m ((c : Thread nD τ).loc main_arg2) : S512x1024.Idx → EReal) slices_S512x1024_S512x512_0_512 := by
    dsimp only [Gen.V, Gen.hostOps0]; after_results; rfl
  rw [e0]
  exact slice2_axis1_apply 512 _ slices_S512x1024_S512x512_0_512 d e _ rfl

/-! ## What a point's body leaves, over the blocks as variables -/

/-- The attention block at block index (u, p, k), when row p of the query block is query row (b, q) and the context block
    is batch b: the attention weight (b, q, k). -/
theorem block5_eq (Q : S8x1024x512.Idx → EReal) (C : S8x4096x512.Idx → EReal)
    (x0 : Vec Ideal S1x256x512 .f32) (x1 : Vec Ideal S1x4096x512 .bf16) (x2 x3 : Vec Ideal S512x512 .bf16) (x4 : Vec Ideal S512 .f32)
    (u : Fin 1) (p : Fin 256) (k : Fin 4096) (b : Fin 8) (q : Fin 1024)
    (h0 : ∀ d : Fin 512, x0 (ix3 (0 : Fin 1) p d) = Q (ix3 b q d))
    (h1 : ∀ (k' : Fin 4096) (d : Fin 512), x1 (ix3 (0 : Fin 1) k' d) = C (ix3 b k' d)) :
    out0_5 x0 x1 x2 x3 x4 (ix3 u p k) = attnAt Q C b q k := by
  unfold out0_5
  rw [Value.canon5_eq]
  show k0_pay4 (View.ld x0 r0_0) (View.ld x1 r0_1) (Value.ix5_0 (ix3 u p k)) = _
  simp only [View.ld_unit_zero (S := S1x256x512) hz3, View.ld_unit_zero (S := S1x4096x512) hz3]
  rw [show Value.ix5_0 (ix3 u p k) = ix2 p k from funext fun a => by match a with | ⟨0, _⟩ => rfl | ⟨1, _⟩ => rfl,
    Payload.attn_block]
  unfold attnAt
  rw [show Payload.qrowOf x0 p = (fun d => Q (ix3 b q d)) from funext h0,
    show Payload.ctxOf x1 = (fun k' d => C (ix3 b k' d)) from funext fun k' => funext (h1 k')]

/-- The output block at block index (u, p, d), when moreover the two weight blocks are the two halves of the weight
    matrix's columns and the bias block is the bias: the projected output (b, q, d). -/
theorem block6_eq (Q : S8x1024x512.Idx → EReal) (C : S8x4096x512.Idx → EReal) (W : S512x1024.Idx → EReal) (B : S512.Idx → EReal)
    (x0 : Vec Ideal S1x256x512 .f32) (x1 : Vec Ideal S1x4096x512 .bf16) (x2 x3 : Vec Ideal S512x512 .bf16) (x4 : Vec Ideal S512 .f32)
    (u : Fin 1) (p : Fin 256) (d : Fin 512) (b : Fin 8) (q : Fin 1024)
    (h0 : ∀ e : Fin 512, x0 (ix3 (0 : Fin 1) p e) = Q (ix3 b q e))
    (h1 : ∀ (k' : Fin 4096) (e : Fin 512), x1 (ix3 (0 : Fin 1) k' e) = C (ix3 b k' e))
    (h2 : ∀ d' e : Fin 512, x2 (ix2 d' e) = W (ix2 d' (⟨e.val, by omega⟩ : Fin 1024)))
    (h3 : ∀ d' e : Fin 512, x3 (ix2 d' e) = W (ix2 d' (⟨512 + e.val, by omega⟩ : Fin 1024)))
    (h4 : ∀ d' : Fin 512, x4 (ix1 d') = B (ix1 d')) :
    out0_6 x0 x1 x2 x3 x4 (ix3 u p d) = outAt Q C W B b q d := by
  unfold out0_6
  rw [Value.canon6_eq]
  show k0_pay6 (View.ld x0 r0_0) (View.ld x1 r0_1) (View.ld x2 r0_3) (View.ld x3 r0_3) (View.ld x4 r0_4) (Value.ix6_0 (ix3 u p d)) = _
  simp only [View.ld_unit_zero (S := S1x256x512) hz3, View.ld_unit_zero (S := S1x4096x512) hz3,
    View.ld_unit_zero (S := S512x512) hz2, View.ld_unit_zero (S := S512) hz1]
  rw [show Value.ix6_0 (ix3 u p d) = ix2 p d from funext fun a => by match a with | ⟨0, _⟩ => rfl | ⟨1, _⟩ => rfl,
    Payload.out_block]
  unfold outAt
  rw [show Payload.qrowOf x0 p = (fun e => Q (ix3 b q e)) from funext h0,
    show Payload.ctxOf x1 = (fun k' e => C (ix3 b k' e)) from funext fun k' => funext (h1 k'),
    show (fun d' e => x2 (ix2 d' e)) = (fun (d' e : Fin 512) => W (ix2 d' (⟨e.val, by omega⟩ : Fin 1024))) from funext fun d' => funext (h2 d'),
    show (fun d' e => x3 (ix2 d' e)) = (fun (d' e : Fin 512) => W (ix2 d' (⟨512 + e.val, by omega⟩ : Fin 1024))) from funext fun d' => funext (h3 d'),
    show (fun d' => x4 (ix1 d')) = (fun d' : Fin 512 => B (ix1 d')) from funext h4]

/-! ## The input blocks as rows of the arguments -/

/-- Row p of the query block at a point is query row (b, q) when the point's block index is (b, q's block, 0). -/
theorem qblk_read (c : Dev nD) (t : Fin cfg0.N) (b : Fin 8) (q : Fin 1024) (p : Fin 256)
    (hb : win0_0.index t (0 : Fin 3) = b.val) (hq : win0_0.index t (1 : Fin 3) * 256 + p.val = q.val)
    (hc : win0_0.index t (2 : Fin 3) = 0) (d : Fin 512) :
    iblk m c 0 t (ix3 (0 : Fin 1) p d) = (m ((c : Thread nD τ).loc main_arg0) : S8x1024x512.Idx → EReal) (ix3 b q d) := by
  show V m c main_arg0 (((cfg0.win 0).blk t).view.emb (ix3 (0 : Fin 1) p d)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * p.val = q.val; omega
  | ⟨2, _⟩ => show win0_0.index t (2 : Fin 3) * 512 + 1 * d.val = d.val; omega

/-- The context block at a point is batch b of the context when the point's block index is (b, 0, 0). -/
theorem cblk_read (c : Dev nD) (t : Fin cfg0.N) (b : Fin 8)
    (hb : win0_1.index t (0 : Fin 3) = b.val) (h1 : win0_1.index t (1 : Fin 3) = 0) (h2 : win0_1.index t (2 : Fin 3) = 0)
    (k : Fin 4096) (d : Fin 512) :
    iblk m c 1 t (ix3 (0 : Fin 1) k d) = (m ((c : Thread nD τ).loc main_arg1) : S8x4096x512.Idx → EReal) (ix3 b k d) := by
  show (V m c main_v0 : S8x4096x512.Idx → EReal) (((cfg0.win 1).blk t).view.emb (ix3 (0 : Fin 1) k d)) = _
  rw [V_ctx]
  refine congrArg _ (funext fun a => Fin.ext ?_)
  match a with
  | ⟨0, _⟩ => show win0_1.index t (0 : Fin 3) * 1 + 1 * 0 = b.val; omega
  | ⟨1, _⟩ => show win0_1.index t (1 : Fin 3) * 4096 + 1 * k.val = k.val; omega
  | ⟨2, _⟩ => show win0_1.index t (2 : Fin 3) * 512 + 1 * d.val = d.val; omega

/-- The first weight block at any point is the left half of the weight matrix's columns. -/
theorem w1blk_read (c : Dev nD) (t : Fin cfg0.N) (h0 : win0_2.index t (0 : Fin 2) = 0) (h1 : win0_2.index t (1 : Fin 2) = 0) (d e : Fin 512) :
    iblk m c 2 t (ix2 d e) = (m ((c : Thread nD τ).loc main_arg2) : S512x1024.Idx → EReal) (ix2 d (⟨e.val, by omega⟩ : Fin 1024)) := by
  show (V m c main_v2 : S512x512.Idx → EReal) (((cfg0.win 2).blk t).view.emb (ix2 d e)) = _
  rw [show ((cfg0.win 2).blk t).view.emb (ix2 d e) = ix2 d e from funext fun a => Fin.ext (by
    match a with
    | ⟨0, _⟩ => show win0_2.index t (0 : Fin 2) * 512 + 1 * d.val = d.val; omega
    | ⟨1, _⟩ => show win0_2.index t (1 : Fin 2) * 512 + 1 * e.val = e.val; omega)]
  exact V_w1 m c d e

/-- The second weight block at any point is the right half of the weight matrix's columns. -/
theorem w2blk_read (c : Dev nD) (t : Fin cfg0.N) (h0 : win0_3.index t (0 : Fin 2) = 0) (h1 : win0_3.index t (1 : Fin 2) = 0) (d e : Fin 512) :
    iblk m c 3 t (ix2 d e) = (m ((c : Thread nD τ).loc main_arg2) : S512x1024.Idx → EReal) (ix2 d (⟨512 + e.val, by omega⟩ : Fin 1024)) := by
  show (V m c main_v4 : S512x512.Idx → EReal) (((cfg0.win 3).blk t).view.emb (ix2 d e)) = _
  rw [show ((cfg0.win 3).blk t).view.emb (ix2 d e) = ix2 d e from funext fun a => Fin.ext (by
    match a with
    | ⟨0, _⟩ => show win0_3.index t (0 : Fin 2) * 512 + 1 * d.val = d.val; omega
    | ⟨1, _⟩ => show win0_3.index t (1 : Fin 2) * 512 + 1 * e.val = e.val; omega)]
  exact V_w2 m c d e

/-- The bias block at any point is the bias. -/
theorem bblk_read (c : Dev nD) (t : Fin cfg0.N) (h0 : win0_4.index t (0 : Fin 1) = 0) (d : Fin 512) :
    iblk m c 4 t (ix1 d) = (m ((c : Thread nD τ).loc main_arg3) : S512.Idx → EReal) (ix1 d) := by
  show V m c main_arg3 (((cfg0.win 4).blk t).view.emb (ix1 d)) = _
  rw [V_main_arg3]
  refine congrArg _ (funext fun a => Fin.ext ?_)
  match a with
  | ⟨0, _⟩ => show win0_4.index t (0 : Fin 1) * 512 + 1 * d.val = d.val; omega

/-! ## What each point writes back -/

/-- The attention weights of the arguments, as the attention output's array. -/
abbrev attnOf (c : Dev nD) : Buf (Elt Ideal) ((c : Thread nD τ).loc main_v5_0) :=
  attnArr (m ((c : Thread nD τ).loc main_arg0)) (m ((c : Thread nD τ).loc main_arg1))

/-- The projected outputs of the arguments, as the other output's array. -/
abbrev outOf (c : Dev nD) : Buf (Elt Ideal) ((c : Thread nD τ).loc main_v5_1) :=
  outArr (m ((c : Thread nD τ).loc main_arg0)) (m ((c : Thread nD τ).loc main_arg1)) (m ((c : Thread nD τ).loc main_arg2))
    (m ((c : Thread nD τ).loc main_arg3))

/-- Point t writes back block t of the attention weights. -/
theorem flushed5_eq (c : Dev nD) (t : Fin cfg0.N) :
    (dats m 0 c).flushed 5 t = ((cfg0.win 5).blk t).view.read (Elt Ideal) (attnOf m c) := by
  rw [Value.flushed5]
  obtain ⟨f0, f1, f2, f3, f4, f5, f6, f7, f8, f9, f10, f11, f12, f13, f14, f15, f16⟩ := idx_facts t
  funext y
  obtain ⟨u, p, k, rfl⟩ : ∃ (u : Fin 1) (p : Fin 256) (k : Fin 4096), y = ix3 u p k := ⟨y 0, y 1, y 2, eq_ix3 y⟩
  have hi : ((cfg0.win 5).blk t).view.emb (ix3 u p k)
      = ix3 (⟨win0_5.index t (0 : Fin 3), f15⟩ : Fin 8) (⟨win0_5.index t (1 : Fin 3) * 256 + p.val, by omega⟩ : Fin 1024) k :=
    funext fun a => Fin.ext (by
      match a with
      | ⟨0, _⟩ => show win0_5.index t (0 : Fin 3) * 1 + 1 * u.val = win0_5.index t (0 : Fin 3); omega
      | ⟨1, _⟩ => show win0_5.index t (1 : Fin 3) * 256 + 1 * p.val = win0_5.index t (1 : Fin 3) * 256 + p.val; omega
      | ⟨2, _⟩ => show win0_5.index t (2 : Fin 3) * 4096 + 1 * k.val = k.val; omega)
  show out0_5 (iblk m c 0 t) (iblk m c 1 t) (iblk m c 2 t) (iblk m c 3 t) (iblk m c 4 t) (ix3 u p k)
    = attnOf m c (((cfg0.win 5).blk t).view.emb (ix3 u p k))
  rw [hi]
  exact block5_eq _ _ (iblk m c 0 t) (iblk m c 1 t) (iblk m c 2 t) (iblk m c 3 t) (iblk m c 4 t) u p k _ _
    (qblk_read m c t _ _ p f0 (by show win0_0.index t (1 : Fin 3) * 256 + p.val = win0_5.index t (1 : Fin 3) * 256 + p.val; omega) f2)
    (cblk_read m c t _ f3 f4 f5)

/-- Point t writes back block t of the projected outputs. -/
theorem flushed6_eq (c : Dev nD) (t : Fin cfg0.N) :
    (dats m 0 c).flushed 6 t = ((cfg0.win 6).blk t).view.read (Elt Ideal) (outOf m c) := by
  rw [Value.flushed6]
  obtain ⟨f0, f1, f2, f3, f4, f5, f6, f7, f8, f9, f10, f11, f12, f13, f14, f15, f16⟩ := idx_facts t
  funext y
  obtain ⟨u, p, d, rfl⟩ : ∃ (u : Fin 1) (p : Fin 256) (d : Fin 512), y = ix3 u p d := ⟨y 0, y 1, y 2, eq_ix3 y⟩
  have hi : ((cfg0.win 6).blk t).view.emb (ix3 u p d)
      = ix3 (⟨win0_5.index t (0 : Fin 3), f15⟩ : Fin 8) (⟨win0_5.index t (1 : Fin 3) * 256 + p.val, by omega⟩ : Fin 1024) d :=
    funext fun a => Fin.ext (by
      match a with
      | ⟨0, _⟩ => show win0_6.index t (0 : Fin 3) * 1 + 1 * u.val = win0_5.index t (0 : Fin 3); omega
      | ⟨1, _⟩ => show win0_6.index t (1 : Fin 3) * 256 + 1 * p.val = win0_5.index t (1 : Fin 3) * 256 + p.val; omega
      | ⟨2, _⟩ => show win0_6.index t (2 : Fin 3) * 512 + 1 * d.val = d.val; omega)
  show out0_6 (iblk m c 0 t) (iblk m c 1 t) (iblk m c 2 t) (iblk m c 3 t) (iblk m c 4 t) (ix3 u p d)
    = outOf m c (((cfg0.win 6).blk t).view.emb (ix3 u p d))
  rw [hi]
  exact block6_eq _ _ _ _ (iblk m c 0 t) (iblk m c 1 t) (iblk m c 2 t) (iblk m c 3 t) (iblk m c 4 t) u p d _ _
    (qblk_read m c t _ _ p f0 (by show win0_0.index t (1 : Fin 3) * 256 + p.val = win0_5.index t (1 : Fin 3) * 256 + p.val; omega) f2)
    (cblk_read m c t _ f3 f4 f5) (w1blk_read m c t f6 f7) (w2blk_read m c t f8 f9) (bblk_read m c t f10)

/-! ## The blocks cover the two output arrays -/

/-- An index of the attention array is in point t's block iff each coordinate is in the block's range on its axis. -/
theorem mem_blk5 (t : Fin cfg0.N) (i : S8x1024x4096.Idx) :
    i ∈ ((cfg0.win 5).blk t).view.set ↔ ∀ a : Fin 3, win0_5.index t a * S1x256x4096.size a ≤ (i a).val ∧ (i a).val < win0_5.index t a * S1x256x4096.size a + S1x256x4096.size a := by
  show i ∈ ((View.whole main_v5_0).slice (win0_5.rect t)).set ↔ _
  rw [View.set_slice_whole, Rect.mem_set_unit]
  exact Iff.rfl

/-- The same for the output array. -/
theorem mem_blk6 (t : Fin cfg0.N) (i : S8x1024x512.Idx) :
    i ∈ ((cfg0.win 6).blk t).view.set ↔ ∀ a : Fin 3, win0_6.index t a * S1x256x512.size a ≤ (i a).val ∧ (i a).val < win0_6.index t a * S1x256x512.size a + S1x256x512.size a := by
  show i ∈ ((View.whole main_v5_1).slice (win0_6.rect t)).set ↔ _
  rw [View.set_slice_whole, Rect.mem_set_unit]
  exact Iff.rfl

/-- Row q of batch b lies in the block of the point (b, q / 256). -/
theorem cover5 (i : S8x1024x4096.Idx) : ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 4096 := (i 2).isLt
  obtain ⟨t, ht0, ht1⟩ := idx_onto ⟨(i 0).val, hi0⟩ ⟨(i 1).val / 256, by omega⟩
  have q0 : win0_5.index t (0 : Fin 3) = (i 0).val := ht0
  have q1 : win0_5.index t (1 : Fin 3) = (i 1).val / 256 := ht1
  obtain ⟨f0, f1, f2, f3, f4, f5, f6, f7, f8, f9, f10, f11, f12, f13, f14, f15, f16⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

theorem cover6 (i : S8x1024x512.Idx) : ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 512 := (i 2).isLt
  obtain ⟨t, ht0, ht1⟩ := idx_onto ⟨(i 0).val, hi0⟩ ⟨(i 1).val / 256, by omega⟩
  have q0 : win0_5.index t (0 : Fin 3) = (i 0).val := ht0
  have q1 : win0_5.index t (1 : Fin 3) = (i 1).val / 256 := ht1
  obtain ⟨f0, f1, f2, f3, f4, f5, f6, f7, f8, f9, f10, f11, f12, f13, f14, f15, f16⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 512 ≤ (i 2).val ∧ (i 2).val < win0_6.index t (2 : Fin 3) * 512 + 512; omega

/-! ## The arrays after the run, and the run -/

theorem final5 (c : Dev nD) : (dats m 0 c).arrAt 5 cfg0.N = attnOf m c :=
  (dats m 0 c).arrAt_eq_of_cover 5 (attnOf m c) (fun t _ => flushed5_eq m c t) cover5

theorem final6 (c : Dev nD) : (dats m 0 c).arrAt 6 cfg0.N = outOf m c :=
  (dats m 0 c).arrAt_eq_of_cover 6 (outOf m c) (fun t _ => flushed6_eq m c t) cover6

/-- The kernel's run: the output array ends at the projected outputs and the attention array at the attention weights of
    the argument arrays, which are unchanged. -/
theorem run : θ_run defs (onTc (τ := τ) (main (F := Ideal))) ⟨m, fun _ => 0, ρ⟩ fun r => ∀ c : Dev nD,
      r.2.mem ((c : Thread nD τ).loc main_v5_1) = outOf m c
      ∧ r.2.mem ((c : Thread nD τ).loc main_v5_0) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).2.1.trans (final6 m c), (h c).1.trans (final5 m c), (h c).2.2⟩)
    (Value.run_blocks m ρ)

end Cert.KernelIdeal.Blocks

end
-- ==== Proof.RefValue.lean ====
/-
  The reference program is the specification: read one operation at a time, its two results are the attention weights
  and the projected outputs of `Cert.AttnSpec`, index by index.
  The scores are the batched product of the queries with the keys; the row maximum is the host's reduction with a maximum
  body from -infinity (followed by a maximum with -infinity, which changes nothing); the exponentials, their row sums (the
  host's sum from 0) and the quotient are the softmax; the mix is the batched product of the weights with the context; the
  concatenation [mix, query] along the feature axis is read in its first piece below column 512 and in its second from
  column 512 on, so its product with the weight matrix, a sum over 1024 columns, is the two sums over 512 of the
  specification; the bias is broadcast along batch and query; tanh is the same function on both sides.
-/
import proofs.«120601_j1580547974427_2_alg».proof.Proof.Gen.ReferenceIdeal.Read
import proofs.«120601_j1580547974427_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.AttnSpec

variable (x0 : (⟨S8x1024x512, .f32⟩ : BufTy).Contents (Elt Ideal)) (x1 : (⟨S8x4096x512, .f32⟩ : BufTy).Contents (Elt Ideal))
  (x2 : (⟨S512x1024, .f32⟩ : BufTy).Contents (Elt Ideal)) (x3 : (⟨S512, .f32⟩ : BufTy).Contents (Elt Ideal))

/-- Row (b, q) of the queries. -/
abbrev qrowOf (b : Fin 8) (q : Fin 1024) : Fin 512 → EReal := fun d => x0 (ix3 b q d)
/-- Batch b of the context. -/
abbrev ctxOf (b : Fin 8) : Fin 4096 → Fin 512 → EReal := fun k d => x1 (ix3 b k d)

/-- The scores: query row (b, q) against context row (b, k). -/
theorem scores_at (b : Fin 8) (q : Fin 1024) (k : Fin 4096) :
    val_main_v0 (F := Ideal) x0 x1 (ix3 b q k) = score (qrowOf x0 b q) (ctxOf x1 b) k := by
  rw [val_main_v0_apply]
  unfold score
  refine Finset.sum_congr rfl fun d _ => ?_
  rw [show lidx_main_v0 (ix3 b q k) d = ix3 b q d from funext fun a => by match a with | ⟨0, _⟩ => rfl | ⟨1, _⟩ => rfl | ⟨2, _⟩ => rfl,
    show ridx_main_v0 (ix3 b q k) d = ix3 b k d from funext fun a => by match a with | ⟨0, _⟩ => rfl | ⟨1, _⟩ => rfl | ⟨2, _⟩ => rfl]

/-- The reduced index (b, q) with key k put back on the last axis is (b, q, k). -/
theorem lift_key (h : S8x1024x4096.Reduces [2] S8x1024) (b : Fin 8) (q : Fin 1024) (k : Fin 4096) :
    h.lift (ix2 b q) k = ix3 b q k := by
  funext c; apply Fin.ext
  match c with | ⟨0, _⟩ => rfl | ⟨1, _⟩ => rfl | ⟨2, _⟩ => rfl

/-- The host's maximum over the keys, from -infinity, is the row's maximum. -/
theorem reduceMax_at (b : Fin 8) (q : Fin 1024) :
    val_main_v1 (F := Ideal) x0 x1 (ix2 b q) = rowMax (score (qrowOf x0 b q) (ctxOf x1 b)) := by
  unfold val_main_v1
  rw [Host.reduce_eq_fold_single (FloatOps.maximumf (F := Ideal) (φ := .f32)) (val_main_v0 (F := Ideal) x0 x1) (val_main_cst (F := Ideal))
    reducesTo_S8x1024x4096_S8x1024_d2 (by decide : S8x1024x4096.Reduces [2] S8x1024) h_S_]
  exact congrArg (fun f => Finset.fold max negInf f (Finset.univ : Finset (Fin 4096)))
    (funext fun k => (congrArg (val_main_v0 (F := Ideal) x0 x1) (lift_key _ b q k)).trans (scores_at x0 x1 b q k))

/-- ... and the further maximum with -infinity leaves it. -/
theorem rowMax_at (b : Fin 8) (q : Fin 1024) :
    val_main_v3 (F := Ideal) x0 x1 (ix2 b q) = rowMax (score (qrowOf x0 b q) (ctxOf x1 b)) := by
  rw [val_main_v3_apply, val_main_v2_apply, val_main_cst_0_apply, reduceMax_at]
  exact max_negInf _

/-- The exponential of a score less its row's maximum. -/
theorem expo_at (b : Fin 8) (q : Fin 1024) (k : Fin 4096) :
    val_main_v7 (F := Ideal) x0 x1 (ix3 b q k)
      = Ideal.exp (score (qrowOf x0 b q) (ctxOf x1 b) k - rowMax (score (qrowOf x0 b q) (ctxOf x1 b))) := by
  have e5 : val_main_v5 (F := Ideal) x0 x1 (ix3 b q k) = rowMax (score (qrowOf x0 b q) (ctxOf x1 b)) := by
    rw [val_main_v5_apply, val_main_v4_apply]
    exact (congrArg (val_main_v3 (F := Ideal) x0 x1)
      (funext fun a => by match a with | ⟨0, _⟩ => rfl | ⟨1, _⟩ => rfl)).trans (rowMax_at x0 x1 b q)
  rw [val_main_v7_apply, val_main_v6_apply, e5, scores_at]
  rfl

/-- The row sums of the exponentials, from 0. -/
theorem denom_at (b : Fin 8) (q : Fin 1024) (k : Fin 4096) :
    val_main_v10 (F := Ideal) x0 x1 (ix3 b q k)
      = ∑ k' : Fin 4096, Ideal.exp (score (qrowOf x0 b q) (ctxOf x1 b) k' - rowMax (score (qrowOf x0 b q) (ctxOf x1 b))) := by
  rw [val_main_v10_apply, val_main_v9_apply]
  refine (congrArg (val_main_v8 (F := Ideal) x0 x1)
    (show idx_main_v9 (idx_main_v10 (ix3 b q k)) = ix2 b q from funext fun a => by match a with | ⟨0, _⟩ => rfl | ⟨1, _⟩ => rfl)).trans ?_
  rw [val_main_v8_apply, val_main_cst_1_apply]
  show Ideal.ofBits .f32 0x00000000#32 + _ = _
  rw [Ideal.ofBits_zero_f32, zero_add]
  refine Finset.sum_congr rfl fun k' _ => ?_
  exact (congrArg (val_main_v7 (F := Ideal) x0 x1)
    (show idx_main_v8 (ix2 b q) k' = ix3 b q k' from funext fun a => by match a with | ⟨0, _⟩ => rfl | ⟨1, _⟩ => rfl | ⟨2, _⟩ => rfl)).trans
    (expo_at x0 x1 b q k')

/-- The attention weights. -/
theorem attn_at (b : Fin 8) (q : Fin 1024) (k : Fin 4096) :
    val_main_v11 (F := Ideal) x0 x1 (ix3 b q k) = attnAt x0 x1 b q k := by
  rw [val_main_v11_apply, expo_at, denom_at]
  rfl

/-- The first result of the reference is the array of attention weights. -/
theorem attn_eq : val_main_v11 (F := Ideal) x0 x1 = attnArr x0 x1 := by
  funext i
  obtain ⟨b, q, k, rfl⟩ : ∃ (b : Fin 8) (q : Fin 1024) (k : Fin 4096), i = ix3 b q k := ⟨i 0, i 1, i 2, eq_ix3 i⟩
  exact attn_at x0 x1 b q k

/-- The mix: the attention row against the context columns. -/
theorem mix_at (b : Fin 8) (q : Fin 1024) (d : Fin 512) :
    val_main_v12 (F := Ideal) x0 x1 (ix3 b q d) = mixRow (qrowOf x0 b q) (ctxOf x1 b) d := by
  rw [val_main_v12_apply]
  unfold mixRow
  refine Finset.sum_congr rfl fun k _ => ?_
  rw [show lidx_main_v12 (ix3 b q d) k = ix3 b q k from funext fun a => by match a with | ⟨0, _⟩ => rfl | ⟨1, _⟩ => rfl | ⟨2, _⟩ => rfl,
    show ridx_main_v12 (ix3 b q d) k = ix3 b k d from funext fun a => by match a with | ⟨0, _⟩ => rfl | ⟨1, _⟩ => rfl | ⟨2, _⟩ => rfl,
    attn_at]
  rfl

/-- The concatenation [mix, query] below column 512 is the mix. -/
theorem comb_left (b : Fin 8) (q : Fin 1024) (e : Fin 512) :
    val_main_v13 (F := Ideal) x0 x1 (ix3 b q (⟨e.val, by omega⟩ : Fin 1024)) = mixRow (qrowOf x0 b q) (ctxOf x1 b) e := by
  unfold val_main_v13
  refine (concatenate_pair_apply_left 2 _ _ concatenates_S8x1024x512_S8x1024x512_S8x1024x1024_d2 _ rfl (ix3 b q e)
    (fun a => by match a with | ⟨0, _⟩ => rfl | ⟨1, _⟩ => rfl | ⟨2, _⟩ => rfl)).trans ?_
  exact mix_at x0 x1 b q e

/-- The concatenation [mix, query] from column 512 on is the query row. -/
theorem comb_right (b : Fin 8) (q : Fin 1024) (e : Fin 512) :
    val_main_v13 (F := Ideal) x0 x1 (ix3 b q (⟨512 + e.val, by omega⟩ : Fin 1024)) = x0 (ix3 b q e) := by
  unfold val_main_v13
  exact concatenate_pair_apply_right 2 _ _ concatenates_S8x1024x512_S8x1024x512_S8x1024x1024_d2 _ rfl rfl (ix3 b q e)
    (fun a ha => by
      match a with
      | ⟨0, _⟩ => rfl
      | ⟨1, _⟩ => rfl
      | ⟨2, _⟩ => exact absurd rfl ha)
    (by show e.val + 512 = 512 + e.val; omega)

/-- The product with the weight matrix: the sum over its 1024 columns is the mix against the left half plus the query against the right half. -/
theorem proj_at (b : Fin 8) (q : Fin 1024) (d : Fin 512) :
    val_main_v14 (F := Ideal) x0 x1 x2 (ix3 b q d)
      = ∑ e : Fin 512, mixRow (qrowOf x0 b q) (ctxOf x1 b) e * x2 (ix2 d (⟨e.val, by omega⟩ : Fin 1024))
        + ∑ e : Fin 512, x0 (ix3 b q e) * x2 (ix2 d (⟨512 + e.val, by omega⟩ : Fin 1024)) := by
  rw [val_main_v14_apply, sum_halves]
  have hl : ∀ k : Fin 1024, lidx_main_v14 (ix3 b q d) k = ix3 b q k := fun k =>
    funext fun a => by match a with | ⟨0, _⟩ => rfl | ⟨1, _⟩ => rfl | ⟨2, _⟩ => rfl
  have hr : ∀ k : Fin 1024, ridx_main_v14 (ix3 b q d) k = ix2 d k := fun k =>
    funext fun a => by match a with | ⟨0, _⟩ => rfl | ⟨1, _⟩ => rfl
  refine congrArg₂ (· + ·) (Finset.sum_congr rfl fun e _ => ?_) (Finset.sum_congr rfl fun e _ => ?_)
  · rw [hl, hr, comb_left]
  · rw [hl, hr, comb_right]

/-- The bias, broadcast along batch and query. -/
theorem bias_at (b : Fin 8) (q : Fin 1024) (d : Fin 512) : val_main_v16 (F := Ideal) x3 (ix3 b q d) = x3 (ix1 d) := by
  rw [val_main_v16_apply, val_main_v15_apply]
  exact congrArg x3 (funext fun a => by match a with | ⟨0, _⟩ => rfl)

/-- The projected outputs. -/
theorem out_at (b : Fin 8) (q : Fin 1024) (d : Fin 512) :
    val_main_v18 (F := Ideal) x0 x1 x2 x3 (ix3 b q d) = outAt x0 x1 x2 x3 b q d := by
  rw [val_main_v18_apply, val_main_v17_apply, proj_at, bias_at]
  rfl

/-- The other result of the reference is the array of projected outputs. -/
theorem out_eq : val_main_v18 (F := Ideal) x0 x1 x2 x3 = outArr x0 x1 x2 x3 := by
  funext i
  obtain ⟨b, q, d, rfl⟩ : ∃ (b : Fin 8) (q : Fin 1024) (d : Fin 512), i = ix3 b q d := ⟨i 0, i 1, i 2, eq_ix3 i⟩
  exact out_at x0 x1 x2 x3 b q d

end Cert.ReferenceIdeal.RefValue

end
-- ==== Proof.lean ====
/-
  A fused attention kernel against its jnp reference, equal as extended reals.

  Inputs: queries Q [8, 1024, 512], context C [8, 4096, 512], weights W [512, 1024], bias B [512]. For batch b and query q,
    score k = sum over d of Q (b, q, d) * C (b, k, d),
    attn k  = exp (score k - M) / sum over k' of exp (score k' - M), M the maximum of the scores taken from -infinity,
    mix d   = sum over k of attn k * C (b, k, d),
    out d   = tanh (sum over the 1024 columns e of [mix, Q (b, q, .)] e * W (d, e) + B d).
  The results are out [8, 1024, 512] and attn [8, 1024, 4096].

  The kernel runs a grid of 8 batches by 4 blocks of 256 queries; each point holds its 256 query rows, the whole context of
  its batch, the two halves W (., 0..511) and W (., 512..1023) of the weights and the bias, computes the scores, the row
  softmax, the mix and the two half-projections, and writes its 256 rows of both results (Proof/Payload.lean: the body's
  values at an index; Proof/Blocks.lean: the blocks fill both arrays). The reference computes the same with whole-array
  operations, the projection as one product over the 1024 concatenated columns (Proof/RefValue.lean). Both are the
  functions of Proof/Spec.lean; the one law between the two spellings is that a sum over 1024 columns is the sum over the
  first 512 plus the sum over the last 512, which needs no entry to be finite: the precondition is not used.
  The kernel read over the extended reals is the kernel's own text (no operation was rewritten), so there is nothing
  to preserve; the three frames are the generated ones, the reference's being its run with the results dropped.
-/
import proofs.«120601_j1580547974427_2_alg».proof.Defs
import proofs.«120601_j1580547974427_2_alg».proof.Proof.Gen.Kernel
import proofs.«120601_j1580547974427_2_alg».proof.Proof.Gen.Kernel.Skeleton
import proofs.«120601_j1580547974427_2_alg».proof.Proof.Gen.Kernel.Launch
import proofs.«120601_j1580547974427_2_alg».proof.Proof.Gen.Kernel.Points
import proofs.«120601_j1580547974427_2_alg».proof.Proof.Gen.Kernel.Frame
import proofs.«120601_j1580547974427_2_alg».proof.Proof.Gen.KernelIdeal
import proofs.«120601_j1580547974427_2_alg».proof.Proof.Gen.KernelIdeal.Skeleton
import proofs.«120601_j1580547974427_2_alg».proof.Proof.Gen.KernelIdeal.Launch
import proofs.«120601_j1580547974427_2_alg».proof.Proof.Gen.KernelIdeal.Points
import proofs.«120601_j1580547974427_2_alg».proof.Proof.Gen.KernelIdeal.Frame
import proofs.«120601_j1580547974427_2_alg».proof.Proof.Gen.ReferenceIdeal
import proofs.«120601_j1580547974427_2_alg».proof.Proof.Gen.Pre_finite_inputs
import proofs.«120601_j1580547974427_2_alg».proof.Proof.Gen.KernelIdeal.Value
import proofs.«120601_j1580547974427_2_alg».proof.Proof.Gen.ReferenceIdeal.Run
import proofs.«120601_j1580547974427_2_alg».proof.Proof.Gen.ReferenceIdeal.Read
import proofs.«120601_j1580547974427_2_alg».proof.Proof.Blocks
import proofs.«120601_j1580547974427_2_alg».proof.Proof.RefValue
import Idealize.ShloMosaic.Adequacy
import Idealize.ShloMosaic.Init

noncomputable section

namespace Cert.Proof

open Idealize.ShloMosaic Idealize.SL.Sem

/-- The kernel as printed runs, faults nowhere and leaves its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference's run, with what it says of the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten. -/
theorem preserves : Cert.preserves_Kernel_KernelIdeal := trivial

/-- From memories that agree on the arguments, the kernel's two arrays end at the projected outputs and the attention weights
    of the arguments (the blocks' run), and the reference's two results are those same two functions of the same arguments. -/
theorem algebraic : Cert.algebraic_KernelIdeal_ReferenceIdeal := by
  intro m ρ m' ρ' _ hagree
  refine ⟨fun c => Cert.KernelIdeal.Blocks.outOf m c, fun c => Cert.KernelIdeal.Blocks.attnOf m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v18_eq (F := Ideal) _ _ _ _).trans ?_
    rw [Cert.ReferenceIdeal.RefValue.out_eq, (hagree c).1, (hagree c).2.1, (hagree c).2.2.1, (hagree c).2.2.2]
  · refine (Cert.ReferenceIdeal.Read.val_main_v11_eq (F := Ideal) _ _).trans ?_
    rw [Cert.ReferenceIdeal.RefValue.attn_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
